-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x36x2048 : Shape := ⟨3, ![32, 36, 2048]⟩
abbrev S32x36x4 : Shape := ⟨3, ![32, 36, 4]⟩
abbrev S2048x512 : Shape := ⟨2, ![2048, 512]⟩
abbrev S512x2048 : Shape := ⟨2, ![512, 2048]⟩
abbrev S4x512 : Shape := ⟨2, ![4, 512]⟩
abbrev S_ : Shape := ⟨0, ![]⟩

class Facts : Prop where
  bcast_S_S32x36x2048 : S_.BroadcastsInDim S32x36x2048 (![] : Fin 0 → Fin S32x36x2048.rank)
  reducesTo_S32x36x2048_S_d0_1_2 : S32x36x2048.ReducesTo [0, 1, 2] S_
  h_S_ : 0 < S_.numel
  bcast_S_S32x36x4 : S_.BroadcastsInDim S32x36x4 (![] : Fin 0 → Fin S32x36x4.rank)
  reducesTo_S32x36x4_S_d0_1_2 : S32x36x4.ReducesTo [0, 1, 2] S_
  bcast_S_S2048x512 : S_.BroadcastsInDim S2048x512 (![] : Fin 0 → Fin S2048x512.rank)
  reducesTo_S2048x512_S_d0_1 : S2048x512.ReducesTo [0, 1] S_
  bcast_S_S512x2048 : S_.BroadcastsInDim S512x2048 (![] : Fin 0 → Fin S512x2048.rank)
  reducesTo_S512x2048_S_d0_1 : S512x2048.ReducesTo [0, 1] S_
  bcast_S_S4x512 : S_.BroadcastsInDim S4x512 (![] : Fin 0 → Fin S4x512.rank)
  reducesTo_S4x512_S_d0_1 : S4x512.ReducesTo [0, 1] S_

variable [Facts]

def fn_part2 {F : FTy → Type} [FloatOps F] (main_arg7 : FVec F S512x2048 .f32) (main_v33 : IVec S_ 1) : IVec S_ 1 :=
  let main_v34 : FVec F S512x2048 .f32 := Host.absf main_arg7
  let main_cst_12 : FVec F S_ .f32 := constant S_ .f32 0x7F800000#32
  let main_v35 : FVec F S512x2048 .f32 := broadcastInDim S512x2048 ![] bcast_S_S512x2048 main_cst_12
  let main_v36 : IVec S512x2048 1 := cmpf .olt main_v34 main_v35
  let main_c_13 : IVec S_ 1 := constantI S_ 1 1#1
  let main_v37 : IVec S_ 1 := (fun x v => Host.reduce IntOp.andi x v reducesTo_S512x2048_S_d0_1 h_S_) main_v36 main_c_13
  let main_v38 : IVec S_ 1 := andi main_v33 main_v37
  main_v38

def fn_part1 {F : FTy → Type} [FloatOps F] (main_arg4 : FVec F S512x2048 .f32) (main_arg5 : FVec F S4x512 .f32) (main_arg6 : FVec F S4x512 .f32) (main_arg7 : FVec F S512x2048 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S4x512 .f32 := Host.absf main_arg5
  let main_cst_8 : FVec F S_ .f32 := constant S_ .f32 0x7F800000#32
  let main_v25 : FVec F S4x512 .f32 := broadcastInDim S4x512 ![] bcast_S_S4x512 main_cst_8
  let main_v26 : IVec S4x512 1 := cmpf .olt main_v24 main_v25
  let main_c_9 : IVec S_ 1 := constantI S_ 1 1#1
  let main_v27 : IVec S_ 1 := (fun x v => Host.reduce IntOp.andi x v reducesTo_S4x512_S_d0_1 h_S_) main_v26 main_c_9
  let main_v28 : IVec S_ 1 := andi main_v23 main_v27
  let main_v29 : FVec F S4x512 .f32 := Host.absf main_arg6
  let main_cst_10 : FVec F S_ .f32 := constant S_ .f32 0x7F800000#32
  let main_v30 : FVec F S4x512 .f32 := broadcastInDim S4x512 ![] bcast_S_S4x512 main_cst_10
  let main_v31 : IVec S4x512 1 := cmpf .olt main_v29 main_v30
  let main_c_11 : IVec S_ 1 := constantI S_ 1 1#1
  let main_v32 : IVec S_ 1 := (fun x v => Host.reduce IntOp.andi x v reducesTo_S4x512_S_d0_1 h_S_) main_v31 main_c_11
  let main_v33 : IVec S_ 1 := andi main_v28 main_v32
  fn_part2 (F := F) main_arg7 main_v33

def fn {F : FTy → Type} [FloatOps F] (main_arg0 : FVec F S32x36x2048 .f32) (main_arg1 : FVec F S32x36x4 .f32) (main_arg2 : FVec F S2048x512 .f32) (main_arg3 : FVec F S2048x512 .f32) (main_arg4 : FVec F S512x2048 .f32) (main_arg5 : FVec F S4x512 .f32) (main_arg6 : FVec F S4x512 .f32) (main_arg7 : FVec F S512x2048 .f32) : IVec S_ 1 :=
  let main_v0 : FVec F S32x36x2048 .f32 := Host.absf main_arg0
  let main_cst : FVec F S_ .f32 := constant S_ .f32 0x7F800000#32
  let main_v1 : FVec F S32x36x2048 .f32 := broadcastInDim S32x36x2048 ![] bcast_S_S32x36x2048 main_cst
  let main_v2 : IVec S32x36x2048 1 := cmpf .olt main_v0 main_v1
  let main_c : IVec S_ 1 := constantI S_ 1 1#1
  let main_v3 : IVec S_ 1 := (fun x v => Host.reduce IntOp.andi x v reducesTo_S32x36x2048_S_d0_1_2 h_S_) main_v2 main_c
  let main_v4 : FVec F S32x36x4 .f32 := Host.absf main_arg1
  let main_cst_0 : FVec F S_ .f32 := constant S_ .f32 0x7F800000#32
  let main_v5 : FVec F S32x36x4 .f32 := broadcastInDim S32x36x4 ![] bcast_S_S32x36x4 main_cst_0
  let main_v6 : IVec S32x36x4 1 := cmpf .olt main_v4 main_v5
  let main_c_1 : IVec S_ 1 := constantI S_ 1 1#1
  let main_v7 : IVec S_ 1 := (fun x v => Host.reduce IntOp.andi x v reducesTo_S32x36x4_S_d0_1_2 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg4 main_arg5 main_arg6 main_arg7 main_v13 main_v16
-- ==== Kernel.lean ====
abbrev S32x36x2048 : Shape := ⟨3, ![32, 36, 2048]⟩
abbrev S32x36x4 : Shape := ⟨3, ![32, 36, 4]⟩
abbrev S2048x512 : Shape := ⟨2, ![2048, 512]⟩
abbrev S512x2048 : Shape := ⟨2, ![512, 2048]⟩
abbrev S4x512 : Shape := ⟨2, ![4, 512]⟩
abbrev S1x36x2048 : Shape := ⟨3, ![1, 36, 2048]⟩
abbrev S1x36x4 : Shape := ⟨3, ![1, 36, 4]⟩
abbrev S36x2048 : Shape := ⟨2, ![36, 2048]⟩
abbrev S36x4 : Shape := ⟨2, ![36, 4]⟩
abbrev S36x512 : Shape := ⟨2, ![36, 512]⟩
abbrev S36x1x512 : Shape := ⟨3, ![36, 1, 512]⟩
abbrev S1x36x512 : Shape := ⟨3, ![1, 36, 512]⟩
abbrev S36x36x512 : Shape := ⟨3, ![36, 36, 512]⟩
abbrev S1296x512 : Shape := ⟨2, ![1296, 512]⟩
abbrev S1296x2048 : Shape := ⟨2, ![1296, 2048]⟩
abbrev S36x36x2048 : Shape := ⟨3, ![36, 36, 2048]⟩

abbrev nBuf : Space → Nat
  | .hbm => 13
  | .vmem => 12
  | .smem => 0
  | _ => 0

abbrev bufTy : (tb : Table) → Fin (tcTables nBuf tb) → BufTy
  | .hbm, ⟨0, _⟩ => ⟨S32x36x2048, .f32⟩
  | .hbm, ⟨1, _⟩ => ⟨S32x36x4, .f32⟩
  | .hbm, ⟨2, _⟩ => ⟨S2048x512, .f32⟩
  | .hbm, ⟨3, _⟩ => ⟨S2048x512, .f32⟩
  | .hbm, ⟨4, _⟩ => ⟨S512x2048, .f32⟩
  | .hbm, ⟨5, _⟩ => ⟨S4x512, .f32⟩
  | .hbm, ⟨6, _⟩ => ⟨S4x512, .f32⟩
  | .hbm, ⟨7, _⟩ => ⟨S512x2048, .f32⟩
  | .hbm, ⟨8, _⟩ => ⟨S2048x512, .bf16⟩
  | .hbm, ⟨9, _⟩ => ⟨S2048x512, .bf16⟩
  | .hbm, ⟨10, _⟩ => ⟨S512x2048, .bf16⟩
  | .hbm, ⟨11, _⟩ => ⟨S512x2048, .bf16⟩
  | .hbm, ⟨12, _⟩ => ⟨S32x36x2048, .f32⟩
  | .local _ .vmem, ⟨0, _⟩ => ⟨S1x36x2048, .f32⟩
  | .local _ .vmem, ⟨1, _⟩ => ⟨S1x36x2048, .f32⟩
  | .local _ .vmem, ⟨2, _⟩ => ⟨S1x36x4, .f32⟩
  | .local _ .vmem, ⟨3, _⟩ => ⟨S1x36x4, .f32⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S4x512, .f32⟩
  | .local _ .vmem, ⟨8, _⟩ => ⟨S4x512, .f32⟩
  | .local _ .vmem, ⟨9, _⟩ => ⟨S512x2048, .bf16⟩
  | .local _ .vmem, ⟨10, _⟩ => ⟨S1x36x2048, .f32⟩
  | .local _ .vmem, ⟨11, _⟩ => ⟨S1x36x2048, .f32⟩
  | _, _ => ⟨S32x36x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x36x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x36x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x36x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  inb_S1x36x2048_S1x36x2048_0_0_0 : ∀ a, (![0, 0, 0] : Fin 3 → Nat) a + S1x36x2048.size a ≤ S1x36x2048.size a
  h_S1x36x2048 : 0 < S1x36x2048.numel
  shapeCasts_S1x36x2048_S36x2048 : S1x36x2048.ShapeCasts S36x2048
  inb_S1x36x4_S1x36x4_0_0_0 : ∀ a, (![0, 0, 0] : Fin 3 → Nat) a + S1x36x4.size a ≤ S1x36x4.size a
  h_S1x36x4 : 0 < S1x36x4.numel
  shapeCasts_S1x36x4_S36x4 : S1x36x4.ShapeCasts S36x4
  inb_S4x512_S4x512_0_0 : ∀ a, (![0, 0] : Fin 2 → Nat) a + S4x512.size a ≤ S4x512.size a
  h_S4x512 : 0 < S4x512.numel
  shapeCasts_S36x512_S36x1x512 : S36x512.ShapeCasts S36x1x512
  shapeCasts_S36x512_S1x36x512 : S36x512.ShapeCasts S1x36x512
  broadcasts_S36x1x512_S36x36x512 : S36x1x512.Broadcasts S36x36x512
  broadcasts_S1x36x512_S36x36x512 : S1x36x512.Broadcasts S36x36x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S36x36x512_S1296x512 : S36x36x512.ShapeCasts S1296x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S1296x2048_S36x36x2048 : S1296x2048.ShapeCasts S36x36x2048
  reduces_S36x36x2048_S36x2048 : S36x36x2048.Reduces [1] S36x2048
  shapeCasts_S36x2048_S1x36x2048 : S36x2048.ShapeCasts S1x36x2048
  dot_S36x4_S4x512_S36x512_1_0_0_1_n_n_wf : DotDims.WF S36x4 S4x512 S36x512 [1] [0] [0] [1] [] []
  dot_S36x2048_S2048x512_S36x512_1_0_0_1_n_n_wf : DotDims.WF S36x2048 S2048x512 S36x512 [1] [0] [0] [1] [] []
  dot_S1296x512_S512x2048_S1296x2048_1_0_0_1_n_n_wf : DotDims.WF S1296x512 S512x2048 S1296x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x36x2048.size a ≤ S32x36x2048.size a
  hwx0_0 : ∀ i : grid0.Coords, EltTy.bits .f32 = 32 ∨ (Rect.block (s := S32x36x2048) S1x36x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x36x4.size a ≤ S32x36x4.size a
  hwx0_1 : ∀ i : grid0.Coords, EltTy.bits .f32 = 32 ∨ (Rect.block (s := S32x36x4) S1x36x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x512.size a
  hwx0_2 : ∀ i : grid0.Coords, EltTy.bits .bf16 = 32 ∨ (Rect.block (s := S2048x512) S2048x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .bf16 = 32 ∨ (Rect.block (s := S2048x512) S2048x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .bf16 = 32 ∨ (Rect.block (s := S512x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x512.size a ≤ S4x512.size a
  hwx0_5 : ∀ i : grid0.Coords, EltTy.bits .f32 = 32 ∨ (Rect.block (s := S4x512) S4x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x512.size a ≤ S4x512.size a
  hwx0_6 : ∀ i : grid0.Coords, EltTy.bits .f32 = 32 ∨ (Rect.block (s := S4x512) S4x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S512x2048.size a
  hwx0_7 : ∀ i : grid0.Coords, EltTy.bits .bf16 = 32 ∨ (Rect.block (s := S512x2048) S512x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x36x2048.size a ≤ S32x36x2048.size a
  hwx0_8 : ∀ i : grid0.Coords, EltTy.bits .f32 = 32 ∨ (Rect.block (s := S32x36x2048) S1x36x2048.size (cc0_transform_8 i) (hinb0_8 i)).WholeWords (EltTy.packing .f32)

variable [Facts₀]

def dot_S36x4_S4x512_S36x512_1_0_0_1_n_n : DotDims S36x4 S4x512 S36x512 where
  lhsContracting := [1]
  rhsContracting := [0]
  lhsNonContracting := [0]
  rhsNonContracting := [1]
  lhsBatch := []
  rhsBatch := []
  wf := dot_S36x4_S4x512_S36x512_1_0_0_1_n_n_wf
def dot_S36x2048_S2048x512_S36x512_1_0_0_1_n_n : DotDims S36x2048 S2048x512 S36x512 where
  lhsContracting := [1]
  rhsContracting := [0]
  lhsNonContracting := [0]
  rhsNonContracting := [1]
  lhsBatch := []
  rhsBatch := []
  wf := dot_S36x2048_S2048x512_S36x512_1_0_0_1_n_n_wf
def dot_S1296x512_S512x2048_S1296x2048_1_0_0_1_n_n : DotDims S1296x512 S512x2048 S1296x2048 where
  lhsContracting := [1]
  rhsContracting := [0]
  lhsNonContracting := [0]
  rhsNonContracting := [1]
  lhsBatch := []
  rhsBatch := []
  wf := dot_S1296x512_S512x2048_S1296x2048_1_0_0_1_n_n_wf

abbrev win0_0 : Pipeline.Window sig grid0 :=
  Pipeline.Window.ofSpec (Memref.whole main_arg0) S1x36x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x36x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S512x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x36x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x36x2048 : Shape := ⟨3, ![32, 36, 2048]⟩
abbrev S32x36x4 : Shape := ⟨3, ![32, 36, 4]⟩
abbrev S2048x512 : Shape := ⟨2, ![2048, 512]⟩
abbrev S512x2048 : Shape := ⟨2, ![512, 2048]⟩
abbrev S4x512 : Shape := ⟨2, ![4, 512]⟩
abbrev S32x36x512 : Shape := ⟨3, ![32, 36, 512]⟩
abbrev S32x36x1x512 : Shape := ⟨4, ![32, 36, 1, 512]⟩
abbrev S32x1x36x512 : Shape := ⟨4, ![32, 1, 36, 512]⟩
abbrev S32x36x36x512 : Shape := ⟨4, ![32, 36, 36, 512]⟩
abbrev S_ : Shape := ⟨0, ![]⟩
abbrev S32x36x36x2048 : Shape := ⟨4, ![32, 36, 36, 2048]⟩

abbrev nBuf : Space → Nat
  | .hbm => 34
  | .vmem => 0
  | .smem => 0
  | _ => 0

abbrev bufTy : (tb : Table) → Fin (tcTables nBuf tb) → BufTy
  | .hbm, ⟨0, _⟩ => ⟨S32x36x2048, .f32⟩
  | .hbm, ⟨1, _⟩ => ⟨S32x36x4, .f32⟩
  | .hbm, ⟨2, _⟩ => ⟨S2048x512, .f32⟩
  | .hbm, ⟨3, _⟩ => ⟨S2048x512, .f32⟩
  | .hbm, ⟨4, _⟩ => ⟨S512x2048, .f32⟩
  | .hbm, ⟨5, _⟩ => ⟨S4x512, .f32⟩
  | .hbm, ⟨6, _⟩ => ⟨S4x512, .f32⟩
  | .hbm, ⟨7, _⟩ => ⟨S512x2048, .f32⟩
  | .hbm, ⟨8, _⟩ => ⟨S32x36x512, .f32⟩
  | .hbm, ⟨9, _⟩ => ⟨S32x36x512, .f32⟩
  | .hbm, ⟨10, _⟩ => ⟨S32x36x1x512, .f32⟩
  | .hbm, ⟨11, _⟩ => ⟨S32x1x36x512, .f32⟩
  | .hbm, ⟨12, _⟩ => ⟨S32x36x36x512, .f32⟩
  | .hbm, ⟨13, _⟩ => ⟨S32x36x36x512, .f32⟩
  | .hbm, ⟨14, _⟩ => ⟨S32x36x36x512, .f32⟩
  | .hbm, ⟨15, _⟩ => ⟨S_, .f32⟩
  | .hbm, ⟨16, _⟩ => ⟨S32x36x36x512, .f32⟩
  | .hbm, ⟨17, _⟩ => ⟨S32x36x36x512, .f32⟩
  | .hbm, ⟨18, _⟩ => ⟨S32x36x36x2048, .f32⟩
  | .hbm, ⟨19, _⟩ => ⟨S32x36x512, .f32⟩
  | .hbm, ⟨20, _⟩ => ⟨S32x36x512, .f32⟩
  | .hbm, ⟨21, _⟩ => ⟨S32x36x1x512, .f32⟩
  | .hbm, ⟨22, _⟩ => ⟨S32x1x36x512, .f32⟩
  | .hbm, ⟨23, _⟩ => ⟨S32x36x36x512, .f32⟩
  | .hbm, ⟨24, _⟩ => ⟨S32x36x36x512, .f32⟩
  | .hbm, ⟨25, _⟩ => ⟨S32x36x36x512, .f32⟩
  | .hbm, ⟨26, _⟩ => ⟨S_, .f32⟩
  | .hbm, ⟨27, _⟩ => ⟨S32x36x36x512, .f32⟩
  | .hbm, ⟨28, _⟩ => ⟨S32x36x36x512, .f32⟩
  | .hbm, ⟨29, _⟩ => ⟨S32x36x36x2048, .f32⟩
  | .hbm, ⟨30, _⟩ => ⟨S32x36x36x2048, .f32⟩
  | .hbm, ⟨31, _⟩ => ⟨S_, .f32⟩
  | .hbm, ⟨32, _⟩ => ⟨S32x36x2048, .f32⟩
  | .hbm, ⟨33, _⟩ => ⟨S32x36x2048, .f32⟩
  | _, _ => ⟨S32x36x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_cst : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call1_cst : Ref sig .tc := ⟨.hbm, 26, rfl⟩
abbrev main_call1_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  bcast_S32x36x512_S32x36x1x512_0_1_3 : S32x36x512.BroadcastsInDim S32x36x1x512 (![0, 1, 3] : Fin 3 → Fin S32x36x1x512.rank)
  bcast_S32x36x512_S32x1x36x512_0_2_3 : S32x36x512.BroadcastsInDim S32x1x36x512 (![0, 2, 3] : Fin 3 → Fin S32x1x36x512.rank)
  bcast_S32x36x1x512_S32x36x36x512_0_1_2_3 : S32x36x1x512.BroadcastsInDim S32x36x36x512 (![0, 1, 2, 3] : Fin 4 → Fin S32x36x36x512.rank)
  bcast_S32x1x36x512_S32x36x36x512_0_1_2_3 : S32x1x36x512.BroadcastsInDim S32x36x36x512 (![0, 1, 2, 3] : Fin 4 → Fin S32x36x36x512.rank)
  bcast_S_S32x36x36x512 : S_.BroadcastsInDim S32x36x36x512 (![] : Fin 0 → Fin S32x36x36x512.rank)
  reducesTo_S32x36x36x2048_S32x36x2048_d2 : S32x36x36x2048.ReducesTo [2] S32x36x2048
  h_S_ : 0 < S_.numel
  dot_S32x36x4_S4x512_S32x36x512_2_0_01_1_n_n_wf : DotDims.WF S32x36x4 S4x512 S32x36x512 [2] [0] [0, 1] [1] [] []
  dot_S32x36x36x512_S512x2048_S32x36x36x2048_3_0_012_1_n_n_wf : DotDims.WF S32x36x36x512 S512x2048 S32x36x36x2048 [3] [0] [0, 1, 2] [1] [] []
  dot_S32x36x2048_S2048x512_S32x36x512_2_0_01_1_n_n_wf : DotDims.WF S32x36x2048 S2048x512 S32x36x512 [2] [0] [0, 1] [1] [] []

variable [Facts₀]

def dot_S32x36x4_S4x512_S32x36x512_2_0_01_1_n_n : DotDims S32x36x4 S4x512 S32x36x512 where
  lhsContracting := [2]
  rhsContracting := [0]
  lhsNonContracting := [0, 1]
  rhsNonContracting := [1]
  lhsBatch := []
  rhsBatch := []
  wf := dot_S32x36x4_S4x512_S32x36x512_2_0_01_1_n_n_wf
def dot_S32x36x36x512_S512x2048_S32x36x36x2048_3_0_012_1_n_n : DotDims S32x36x36x512 S512x2048 S32x36x36x2048 where
  lhsContracting := [3]
  rhsContracting := [0]
  lhsNonContracting := [0, 1, 2]
  rhsNonContracting := [1]
  lhsBatch := []
  rhsBatch := []
  wf := dot_S32x36x36x512_S512x2048_S32x36x36x2048_3_0_012_1_n_n_wf
def dot_S32x36x2048_S2048x512_S32x36x512_2_0_01_1_n_n : DotDims S32x36x2048 S2048x512 S32x36x512 where
  lhsContracting := [2]
  rhsContracting := [0]
  lhsNonContracting := [0, 1]
  rhsNonContracting := [1]
  lhsBatch := []
  rhsBatch := []
  wf := dot_S32x36x2048_S2048x512_S32x36x512_2_0_01_1_n_n_wf

class Facts : Prop extends Facts₀ where

variable [Facts]
-- ==== Proof.MatmulAt.lean ====
/-
  The kernel's three matrix products, each read at one entry, at the ideal values: a product of an A × K block with a
  K × C block into a zero accumulator has, at (a, c), the value Σ_k l[a,k] · r[k,c] — no rounding and no order of
  accumulation is left in it. The contraction index of each product has one axis; the sum over it is re-indexed by
  that axis's coordinate, and the operand indices at a contraction position are read off coordinate by coordinate:
  the kept axis from the result index, the contracted axis from the position.
-/
import proofs.«153638_j45707041964432_2_alg».proof.Proof.Gen.KernelIdeal
import Idealize.ShloMosaic.PureOps.Ideal.Laws
import Idealize.ShloMosaic.Lib.ValueIdx

noncomputable section

open scoped BigOperators

namespace Cert.KernelIdeal.BlockValue

open Cert.KernelIdeal Cert.KernelIdeal.Gen Idealize.ShloMosaic Idealize.ShloMosaic.ValueIdx

/-! ### Coordinates (36 × 4) times a 4 × 512 matrix -/

theorem coordMatmul_lhs0 (i : S36x512.Idx) (q : dot_S36x4_S4x512_S36x512_1_0_0_1_n_n.contr.Idx) :
    (dot_S36x4_S4x512_S36x512_1_0_0_1_n_n.lhsIdx i q 0).val = (i 0).val := by
  unfold DotDims.lhsIdx
  rw [dif_neg (show ¬(0 : Fin S36x4.rank) ∈ dot_S36x4_S4x512_S36x512_1_0_0_1_n_n.lhsBatch by decide), dif_pos (show (0 : Fin S36x4.rank) ∈ dot_S36x4_S4x512_S36x512_1_0_0_1_n_n.lhsNonContracting by decide)]
  rfl
theorem coordMatmul_rhs1 (i : S36x512.Idx) (q : dot_S36x4_S4x512_S36x512_1_0_0_1_n_n.contr.Idx) :
    (dot_S36x4_S4x512_S36x512_1_0_0_1_n_n.rhsIdx i q 1).val = (i 1).val := by
  unfold DotDims.rhsIdx
  rw [dif_neg (show ¬(1 : Fin S4x512.rank) ∈ dot_S36x4_S4x512_S36x512_1_0_0_1_n_n.rhsBatch by decide), dif_pos (show (1 : Fin S4x512.rank) ∈ dot_S36x4_S4x512_S36x512_1_0_0_1_n_n.rhsNonContracting by decide)]
  rfl

/-- Entry (a, c) of the product into a zero accumulator is Σ_k l[a,k] · r[k,c]. -/
theorem coordMatmul_apply {φ₁ φ₂ : FTy} (l : FVec Ideal S36x4 φ₁) (r : FVec Ideal S4x512 φ₂) (a : Fin 36) (c : Fin 512) :
    matmul dot_S36x4_S4x512_S36x512_1_0_0_1_n_n none l r (constant (F := Ideal) S36x512 .f32 0x00000000#32) (ix2 a c)
      = ∑ k : Fin 4, l (ix2 a k) * r (ix2 k c) := by
  simp only [matmul]
  rw [Ideal.matmul_constant_zero_apply, ← Equiv.sum_comp (contrEquiv1 dot_S36x4_S4x512_S36x512_1_0_0_1_n_n 4 rfl rfl).symm]
  refine Finset.sum_congr rfl fun k _ => ?_
  have hk := contrEquiv1_symm_val dot_S36x4_S4x512_S36x512_1_0_0_1_n_n 4 rfl rfl k
  have el : dot_S36x4_S4x512_S36x512_1_0_0_1_n_n.lhsIdx (ix2 a c) ((contrEquiv1 dot_S36x4_S4x512_S36x512_1_0_0_1_n_n 4 rfl rfl).symm k) = ix2 a k := funext fun x => Fin.ext (by
    match x with
    | ⟨0, _⟩ => exact coordMatmul_lhs0 _ _
    | ⟨1, _⟩ => exact (dot_S36x4_S4x512_S36x512_1_0_0_1_n_n.lhsIdx_val_of_single rfl _ _).trans hk)
  have er : dot_S36x4_S4x512_S36x512_1_0_0_1_n_n.rhsIdx (ix2 a c) ((contrEquiv1 dot_S36x4_S4x512_S36x512_1_0_0_1_n_n 4 rfl rfl).symm k) = ix2 k c := funext fun x => Fin.ext (by
    match x with
    | ⟨0, _⟩ => exact (dot_S36x4_S4x512_S36x512_1_0_0_1_n_n.rhsIdx_val_of_single rfl _ _).trans hk
    | ⟨1, _⟩ => exact coordMatmul_rhs1 _ _)
  rw [el, er]

/-! ### Features (36 × 2048) times a 2048 × 512 matrix -/

theorem featMatmul_lhs0 (i : S36x512.Idx) (q : dot_S36x2048_S2048x512_S36x512_1_0_0_1_n_n.contr.Idx) :
    (dot_S36x2048_S2048x512_S36x512_1_0_0_1_n_n.lhsIdx i q 0).val = (i 0).val := by
  unfold DotDims.lhsIdx
  rw [dif_neg (show ¬(0 : Fin S36x2048.rank) ∈ dot_S36x2048_S2048x512_S36x512_1_0_0_1_n_n.lhsBatch by decide), dif_pos (show (0 : Fin S36x2048.rank) ∈ dot_S36x2048_S2048x512_S36x512_1_0_0_1_n_n.lhsNonContracting by decide)]
  rfl
theorem featMatmul_rhs1 (i : S36x512.Idx) (q : dot_S36x2048_S2048x512_S36x512_1_0_0_1_n_n.contr.Idx) :
    (dot_S36x2048_S2048x512_S36x512_1_0_0_1_n_n.rhsIdx i q 1).val = (i 1).val := by
  unfold DotDims.rhsIdx
  rw [dif_neg (show ¬(1 : Fin S2048x512.rank) ∈ dot_S36x2048_S2048x512_S36x512_1_0_0_1_n_n.rhsBatch by decide), dif_pos (show (1 : Fin S2048x512.rank) ∈ dot_S36x2048_S2048x512_S36x512_1_0_0_1_n_n.rhsNonContracting by decide)]
  rfl

/-- Entry (a, c) of the product into a zero accumulator is Σ_k l[a,k] · r[k,c]. -/
theorem featMatmul_apply {φ₁ φ₂ : FTy} (l : FVec Ideal S36x2048 φ₁) (r : FVec Ideal S2048x512 φ₂) (a : Fin 36) (c : Fin 512) :
    matmul dot_S36x2048_S2048x512_S36x512_1_0_0_1_n_n none l r (constant (F := Ideal) S36x512 .f32 0x00000000#32) (ix2 a c)
      = ∑ k : Fin 2048, l (ix2 a k) * r (ix2 k c) := by
  simp only [matmul]
  rw [Ideal.matmul_constant_zero_apply, ← Equiv.sum_comp (contrEquiv1 dot_S36x2048_S2048x512_S36x512_1_0_0_1_n_n 2048 rfl rfl).symm]
  refine Finset.sum_congr rfl fun k _ => ?_
  have hk := contrEquiv1_symm_val dot_S36x2048_S2048x512_S36x512_1_0_0_1_n_n 2048 rfl rfl k
  have el : dot_S36x2048_S2048x512_S36x512_1_0_0_1_n_n.lhsIdx (ix2 a c) ((contrEquiv1 dot_S36x2048_S2048x512_S36x512_1_0_0_1_n_n 2048 rfl rfl).symm k) = ix2 a k := funext fun x => Fin.ext (by
    match x with
    | ⟨0, _⟩ => exact featMatmul_lhs0 _ _
    | ⟨1, _⟩ => exact (dot_S36x2048_S2048x512_S36x512_1_0_0_1_n_n.lhsIdx_val_of_single rfl _ _).trans hk)
  have er : dot_S36x2048_S2048x512_S36x512_1_0_0_1_n_n.rhsIdx (ix2 a c) ((contrEquiv1 dot_S36x2048_S2048x512_S36x512_1_0_0_1_n_n 2048 rfl rfl).symm k) = ix2 k c := funext fun x => Fin.ext (by
    match x with
    | ⟨0, _⟩ => exact (dot_S36x2048_S2048x512_S36x512_1_0_0_1_n_n.rhsIdx_val_of_single rfl _ _).trans hk
    | ⟨1, _⟩ => exact featMatmul_rhs1 _ _)
  rw [el, er]

/-! ### The 1296 pair rows (1296 × 512) times a 512 × 2048 matrix -/

theorem pairMatmul_lhs0 (i : S1296x2048.Idx) (q : dot_S1296x512_S512x2048_S1296x2048_1_0_0_1_n_n.contr.Idx) :
    (dot_S1296x512_S512x2048_S1296x2048_1_0_0_1_n_n.lhsIdx i q 0).val = (i 0).val := by
  unfold DotDims.lhsIdx
  rw [dif_neg (show ¬(0 : Fin S1296x512.rank) ∈ dot_S1296x512_S512x2048_S1296x2048_1_0_0_1_n_n.lhsBatch by decide), dif_pos (show (0 : Fin S1296x512.rank) ∈ dot_S1296x512_S512x2048_S1296x2048_1_0_0_1_n_n.lhsNonContracting by decide)]
  rfl
theorem pairMatmul_rhs1 (i : S1296x2048.Idx) (q : dot_S1296x512_S512x2048_S1296x2048_1_0_0_1_n_n.contr.Idx) :
    (dot_S1296x512_S512x2048_S1296x2048_1_0_0_1_n_n.rhsIdx i q 1).val = (i 1).val := by
  unfold DotDims.rhsIdx
  rw [dif_neg (show ¬(1 : Fin S512x2048.rank) ∈ dot_S1296x512_S512x2048_S1296x2048_1_0_0_1_n_n.rhsBatch by decide), dif_pos (show (1 : Fin S512x2048.rank) ∈ dot_S1296x512_S512x2048_S1296x2048_1_0_0_1_n_n.rhsNonContracting by decide)]
  rfl

/-- Entry (a, c) of the product into a zero accumulator is Σ_k l[a,k] · r[k,c]. -/
theorem pairMatmul_apply {φ₁ φ₂ : FTy} (l : FVec Ideal S1296x512 φ₁) (r : FVec Ideal S512x2048 φ₂) (a : Fin 1296) (c : Fin 2048) :
    matmul dot_S1296x512_S512x2048_S1296x2048_1_0_0_1_n_n none l r (constant (F := Ideal) S1296x2048 .f32 0x00000000#32) (ix2 a c)
      = ∑ k : Fin 512, l (ix2 a k) * r (ix2 k c) := by
  simp only [matmul]
  rw [Ideal.matmul_constant_zero_apply, ← Equiv.sum_comp (contrEquiv1 dot_S1296x512_S512x2048_S1296x2048_1_0_0_1_n_n 512 rfl rfl).symm]
  refine Finset.sum_congr rfl fun k _ => ?_
  have hk := contrEquiv1_symm_val dot_S1296x512_S512x2048_S1296x2048_1_0_0_1_n_n 512 rfl rfl k
  have el : dot_S1296x512_S512x2048_S1296x2048_1_0_0_1_n_n.lhsIdx (ix2 a c) ((contrEquiv1 dot_S1296x512_S512x2048_S1296x2048_1_0_0_1_n_n 512 rfl rfl).symm k) = ix2 a k := funext fun x => Fin.ext (by
    match x with
    | ⟨0, _⟩ => exact pairMatmul_lhs0 _ _
    | ⟨1, _⟩ => exact (dot_S1296x512_S512x2048_S1296x2048_1_0_0_1_n_n.lhsIdx_val_of_single rfl _ _).trans hk)
  have er : dot_S1296x512_S512x2048_S1296x2048_1_0_0_1_n_n.rhsIdx (ix2 a c) ((contrEquiv1 dot_S1296x512_S512x2048_S1296x2048_1_0_0_1_n_n 512 rfl rfl).symm k) = ix2 k c := funext fun x => Fin.ext (by
    match x with
    | ⟨0, _⟩ => exact (dot_S1296x512_S512x2048_S1296x2048_1_0_0_1_n_n.rhsIdx_val_of_single rfl _ _).trans hk
    | ⟨1, _⟩ => exact pairMatmul_rhs1 _ _)
  rw [el, er]

end Cert.KernelIdeal.BlockValue

end
-- ==== Proof.LibLayout.lean ====
/-
  Layout operations of rank-3 arrays read at an index given by its coordinates, and a maximum along the middle axis.

  * an [a, b] array viewed as [a, 1, b] reads, at (i, u, j), the entry (i, j);
  * an [a, 1, b] array repeated along its middle axis reads, at (i, j, r), the entry (i, 0, r) — a column of rows,
    each row repeated; a [1, a, b] array repeated along its first axis reads, at (i, j, r), the entry (0, j, r);
  * a [36, 36, c] array flattened to [1296, c] has row 36·i + j holding what (i, j) held, and back;
  * the maximum of a [a, b, c] array along its middle axis, from the value of the starting word, is at (i, d) the
    fold of `max` over j of the entries (i, j, d).
  All by the row-major position of an index: a reshape keeps it, and it is a polynomial in the coordinates.
-/
import Idealize.ShloMosaic.Lib.Pipeline.Value
import Idealize.ShloMosaic.Lib.ValueIdx
import Idealize.ShloMosaic.PureOps.Ideal.Laws

noncomputable section

namespace Cert.LibLayout

open Idealize.ShloMosaic Idealize.ShloMosaic.ValueIdx

variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array broadcast to `[a, c, b]` reads, at `(i, j, r)`, the operand at `(i, 0, r)`. -/
theorem broadcastTo_a1b_acb_apply {a b c : ℕ} (ha : a ≠ 1) (hb : b ≠ 1)
    (v : (⟨3, ![a, 1, b]⟩ : Shape).Idx → α) (h : (⟨3, ![a, 1, b]⟩ : Shape).Broadcasts ⟨3, ![a, c, b]⟩)
    (i : Fin a) (j : Fin c) (r : Fin b) :
    broadcastTo ⟨3, ![a, c, b]⟩ v h (ix3 i j r) = v (ix3 i (0 : Fin 1) r) :=
  broadcastTo_apply v h _ _ fun x => match x with
    | ⟨0, _⟩ => by show i.val = if a = 1 then 0 else i.val; rw [if_neg ha]
    | ⟨1, _⟩ => by show 0 = if (1 : ℕ) = 1 then 0 else j.val; rw [if_pos rfl]
    | ⟨2, _⟩ => by show r.val = if b = 1 then 0 else r.val; rw [if_neg hb]

/-- A `[1, a, b]` array broadcast to `[c, a, b]` reads, at `(i, j, r)`, the operand at `(0, j, r)`. -/
theorem broadcastTo_1ab_cab_apply {a b c : ℕ} (ha : a ≠ 1) (hb : b ≠ 1)
    (v : (⟨3, ![1, a, b]⟩ : Shape).Idx → α) (h : (⟨3, ![1, a, b]⟩ : Shape).Broadcasts ⟨3, ![c, a, b]⟩)
    (i : Fin c) (j : Fin a) (r : Fin b) :
    broadcastTo ⟨3, ![c, a, b]⟩ v h (ix3 i j r) = v (ix3 (0 : Fin 1) j r) :=
  broadcastTo_apply v h _ _ fun x => match x with
    | ⟨0, _⟩ => by show 0 = if (1 : ℕ) = 1 then 0 else i.val; rw [if_pos rfl]
    | ⟨1, _⟩ => by show j.val = if a = 1 then 0 else j.val; rw [if_neg ha]
    | ⟨2, _⟩ => by show r.val = if b = 1 then 0 else r.val; rw [if_neg hb]

/-- Row `36·i + j` of the 1296 rows that the 36 × 36 pairs `(i, j)` make, in row-major order. -/
def pairRow (i j : Fin 36) : Fin 1296 := ⟨i.val * 36 + j.val, by have := i.isLt; have := j.isLt; omega⟩

/-- A `[36, 36, c]` array cast to `[1296, c]` reads, at row `pairRow i j`, the operand at `(i, j, ·)`. -/
theorem shapeCast_pairs_rows_apply {c : ℕ} (x : (⟨3, ![36, 36, c]⟩ : Shape).Idx → α)
    (h : (⟨3, ![36, 36, c]⟩ : Shape).ShapeCasts ⟨2, ![1296, c]⟩) (i j : Fin 36) (r : Fin c) :
    shapeCast ⟨2, ![1296, c]⟩ x h (ix2 (pairRow i j) r) = x (ix3 i j r) :=
  shapeCast_apply x h _ _ (by
    rw [Shape.rowMajor_val_three, Shape.rowMajor_val_two]
    rfl)

/-- A `[1296, c]` array cast to `[36, 36, c]` reads, at `(i, j, ·)`, the operand at row `pairRow i j`. -/
theorem shapeCast_rows_pairs_apply {c : ℕ} (x : (⟨2, ![1296, c]⟩ : Shape).Idx → α)
    (h : (⟨2, ![1296, c]⟩ : Shape).ShapeCasts ⟨3, ![36, 36, c]⟩) (i j : Fin 36) (r : Fin c) :
    shapeCast ⟨3, ![36, 36, c]⟩ x h (ix3 i j r) = x (ix2 (pairRow i j) r) :=
  shapeCast_apply x h _ _ (by
    rw [Shape.rowMajor_val_three, Shape.rowMajor_val_two]
    rfl)

/-- The maximum of an f32 `[a, b, c]` array along its middle axis, started from the word `acc`: at `(i, d)` it is
    the fold of `max`, from what `acc` denotes, over `j` of the entries `(i, j, d)`. -/
theorem maxMiddle_apply {a b c : ℕ} (src : FVec Ideal ⟨3, ![a, b, c]⟩ .f32) (acc : BitVec 32)
    (h : (⟨3, ![a, b, c]⟩ : Shape).Reduces [1] ⟨2, ![a, c]⟩) (hφ : FKind.Formats .f32)
    (hacc : acc = FKind.maximumf.neutral .f32 hφ) (i : Fin a) (d : Fin c) :
    multiReduction .maximumf [1] ⟨2, ![a, c]⟩ src acc h hφ hacc (ix2 i d)
      = (Finset.univ : Finset (Fin b)).fold max (Ideal.ofBits .f32 acc) (fun j => src (ix3 i j d)) := by
  refine (Ideal.multiReduction_maximumf_single src acc h hφ hacc (ix2 i d)).trans ?_
  have e : (src ∘ h.lift (ix2 i d)) = fun j : Fin b => src (ix3 i j d) := funext fun j => congrArg src (funext fun x => Fin.ext (by
    match x with
    | ⟨0, _⟩ => rfl
    | ⟨1, _⟩ => rfl
    | ⟨2, _⟩ => rfl))
  rw [e]
  rfl

end Cert.LibLayout

end
-- ==== Proof.PairSpec.lean ====
/-
  The function both programs compute, written over plain coordinates of one batch element.

  One batch element has region features `x` (36 regions × 2048 features) and region coordinates `q` (36 × 4).
  Two low-rank projections of each give, for every region, a 512-vector; a PAIR of regions (i, j) is fused by the
  product of region i's first projection with region j's second, cut below at zero, and sent back to feature
  space by a third matrix. With

      uc = q · Uc,   vc = q · Vc,   uf = x · Uf,   vf = x · Vf          (each 36 × 512)
      s(i, j, d) = Σ_r max(uc[i,r] · vc[j,r], 0) · Pc[r,d]  +  Σ_r max(uf[i,r] · vf[j,r], 0) · Pf[r,d]

  region i's new feature d is the largest pair score over its partners j, taken from −∞, plus the old feature:

      out[i, d] = max_j s(i, j, d) + x[i, d].

  Everything is over the extended reals. The two float words that occur — zero, under the cut, and −∞, where the
  maximum starts — are kept as the words themselves; the same word stands on both sides of every comparison made
  later, so what it denotes is never needed.
-/
import Idealize.ShloMosaic.PureOps.Ideal
import Idealize.ShloMosaic.Lib.ValueIdx

noncomputable section

open scoped BigOperators

namespace Cert.PairFusion

open Idealize.ShloMosaic Idealize.ShloMosaic.ValueIdx

/-- Row `n` of the 36 × 4 coordinates times column `r` of a 4 × 512 matrix. -/
def coordProj (q : Fin 36 → Fin 4 → EReal) (W : Fin 4 → Fin 512 → EReal) (n : Fin 36) (r : Fin 512) : EReal :=
  ∑ k : Fin 4, q n k * W k r

/-- Row `n` of the 36 × 2048 features times column `r` of a 2048 × 512 matrix. -/
def featProj (x : Fin 36 → Fin 2048 → EReal) (W : Fin 2048 → Fin 512 → EReal) (n : Fin 36) (r : Fin 512) : EReal :=
  ∑ k : Fin 2048, x n k * W k r

/-- The score of the pair (i, j) on feature `d`, from region i's projection `u`, region j's projection `v` and
    the matrix `P` back to feature space: Σ_r max(u[i,r] · v[j,r], 0) · P[r,d]. -/
def pairScore (u v : Fin 36 → Fin 512 → EReal) (P : Fin 512 → Fin 2048 → EReal) (i j : Fin 36) (d : Fin 2048) : EReal :=
  ∑ r : Fin 512, max (u i r * v j r) (Ideal.ofBits .f32 0x00000000#32) * P r d

/-- One batch element's result at region `i`, feature `d`: the largest, over the partner `j`, of the coordinate
    pair score plus the feature pair score, from −∞, plus the old feature. -/
def fused (x : Fin 36 → Fin 2048 → EReal) (q : Fin 36 → Fin 4 → EReal)
    (Uf Vf : Fin 2048 → Fin 512 → EReal) (Pf : Fin 512 → Fin 2048 → EReal)
    (Uc Vc : Fin 4 → Fin 512 → EReal) (Pc : Fin 512 → Fin 2048 → EReal) (i : Fin 36) (d : Fin 2048) : EReal :=
  (Finset.univ : Finset (Fin 36)).fold max (Ideal.ofBits .f32 0xFF800000#32)
      (fun j => pairScore (coordProj q Uc) (coordProj q Vc) Pc i j d + pairScore (featProj x Uf) (featProj x Vf) Pf i j d)
    + x i d

/-- The whole result array, 32 batch elements × 36 regions × 2048 features, as one function of the eight argument
    arrays: batch element `b` is `fused` of its own rows of the features and of the coordinates. -/
def result (mm : (⟨3, ![32, 36, 2048]⟩ : Shape).Idx → EReal) (coords : (⟨3, ![32, 36, 4]⟩ : Shape).Idx → EReal)
    (Uf Vf : (⟨2, ![2048, 512]⟩ : Shape).Idx → EReal) (Pf : (⟨2, ![512, 2048]⟩ : Shape).Idx → EReal)
    (Uc Vc : (⟨2, ![4, 512]⟩ : Shape).Idx → EReal) (Pc : (⟨2, ![512, 2048]⟩ : Shape).Idx → EReal) :
    (⟨3, ![32, 36, 2048]⟩ : Shape).Idx → EReal := fun o =>
  fused (fun n k => mm (ix3 (o 0) n k)) (fun n k => coords (ix3 (o 0) n k))
    (fun k r => Uf (ix2 k r)) (fun k r => Vf (ix2 k r)) (fun r d => Pf (ix2 r d))
    (fun k r => Uc (ix2 k r)) (fun k r => Vc (ix2 k r)) (fun r d => Pc (ix2 r d)) (o 1) (o 2)

/-- At an index given by its coordinates. -/
theorem result_ix3 (mm : (⟨3, ![32, 36, 2048]⟩ : Shape).Idx → EReal) (coords : (⟨3, ![32, 36, 4]⟩ : Shape).Idx → EReal)
    (Uf Vf : (⟨2, ![2048, 512]⟩ : Shape).Idx → EReal) (Pf : (⟨2, ![512, 2048]⟩ : Shape).Idx → EReal)
    (Uc Vc : (⟨2, ![4, 512]⟩ : Shape).Idx → EReal) (Pc : (⟨2, ![512, 2048]⟩ : Shape).Idx → EReal)
    (b : Fin 32) (i : Fin 36) (d : Fin 2048) :
    result mm coords Uf Vf Pf Uc Vc Pc (ix3 b i d)
      = fused (fun n k => mm (ix3 b n k)) (fun n k => coords (ix3 b n k))
          (fun k r => Uf (ix2 k r)) (fun k r => Vf (ix2 k r)) (fun r d => Pf (ix2 r d))
          (fun k r => Uc (ix2 k r)) (fun k r => Vc (ix2 k r)) (fun r d => Pc (ix2 r d)) i d := rfl

end Cert.PairFusion

end
-- ==== Proof.BlockValue.lean ====
/-
  What the kernel body stores for one batch element, read at an entry: `fused` of the blocks it loaded.

  The body's arithmetic is four pure terms of its loads. Read at an entry:
  * the features block with its unit axis dropped is the block itself, row by row;
  * a projection is a matrix product of such rows (the narrowing of its operands changes nothing at the ideal
    values), so its (n, r) entry is Σ_k x[n,k] · W[k,r];
  * the pair tensor is the product of region i's first projection with region j's second, cut below at zero, laid
    out as 1296 rows: row 36·i + j is the pair (i, j);
  * each pair row times a 512 × 2048 matrix is that pair's score on every feature; the two scores are added, the
    1296 rows are read as 36 × 36 again, the maximum over the partner j is taken from −∞, and the features are added.
-/
import proofs.«153638_j45707041964432_2_alg».proof.Proof.Gen.KernelIdeal.Skeleton
import proofs.«153638_j45707041964432_2_alg».proof.Proof.MatmulAt
import proofs.«153638_j45707041964432_2_alg».proof.Proof.LibLayout
import proofs.«153638_j45707041964432_2_alg».proof.Proof.PairSpec
import Idealize.ShloMosaic.Lib.ValueLayout

noncomputable section

open scoped BigOperators

namespace Cert.KernelIdeal.BlockValue

open Cert.KernelIdeal Cert.KernelIdeal.Gen Idealize.ShloMosaic Idealize.ShloMosaic.ValueIdx Cert.PairFusion Cert.LibLayout

/-- The features block [1, 36, 2048] viewed as [36, 2048]: entry (n, k) is the block's (0, n, k). -/
theorem rows_apply (v0 : FVec Ideal S1x36x2048 .f32) (n : Fin 36) (k : Fin 2048) :
    k0_pay2 (F := Ideal) v0 (ix2 n k) = v0 (ix3 (0 : Fin 1) n k) := by
  unfold k0_pay2
  exact shapeCast_1ab_ab_apply v0 _ n k

/-- A coordinate projection: the coordinates block [1, 36, 4], viewed [36, 4], times a 4 × 512 block. -/
theorem coordProj_blk (v2 : FVec Ideal S1x36x4 .f32) (w : FVec Ideal S4x512 .f32) (n : Fin 36) (r : Fin 512) :
    matmul dot_S36x4_S4x512_S36x512_1_0_0_1_n_n none (shapeCast S36x4 v2 shapeCasts_S1x36x4_S36x4) w
        (constant (F := Ideal) S36x512 .f32 0x00000000#32) (ix2 n r)
      = coordProj (fun n k => v2 (ix3 (0 : Fin 1) n k)) (fun k r => w (ix2 k r)) n r := by
  refine (coordMatmul_apply _ _ n r).trans ?_
  unfold coordProj
  refine Finset.sum_congr rfl fun k _ => ?_
  exact congrArg (· * w (ix2 k r)) (shapeCast_1ab_ab_apply v2 _ n k)

/-- A feature projection: the features rows, narrowed, times a 2048 × 512 block. -/
theorem featProj_blk (v0 : FVec Ideal S1x36x2048 .f32) (w : FVec Ideal S2048x512 .bf16) (n : Fin 36) (r : Fin 512) :
    matmul dot_S36x2048_S2048x512_S36x512_1_0_0_1_n_n none (truncf .bf16 (k0_pay2 (F := Ideal) v0) bitsLt_bf16_f32)
        (shapeCast S2048x512 w shapeCasts_S2048x512_S2048x512) (constant (F := Ideal) S36x512 .f32 0x00000000#32) (ix2 n r)
      = featProj (fun n k => v0 (ix3 (0 : Fin 1) n k)) (fun k r => w (ix2 k r)) n r := by
  refine (featMatmul_apply _ _ n r).trans ?_
  unfold featProj
  refine Finset.sum_congr rfl fun k _ => ?_
  rw [shapeCast_self]
  exact congrArg (· * w (ix2 k r)) (rows_apply v0 n k)

/-- The pair tensor of two projections `u`, `v` (each 36 × 512), as the body lays it out: row 36·i + j, column r,
    holds max(u[i,r] · v[j,r], 0). -/
theorem pairCut_apply (u v : FVec Ideal S36x512 .f32) (i j : Fin 36) (r : Fin 512) :
    truncf .bf16 (shapeCast S1296x512
        (maximumf (mulf (broadcastTo S36x36x512 (shapeCast S36x1x512 u shapeCasts_S36x512_S36x1x512) broadcasts_S36x1x512_S36x36x512)
                        (broadcastTo S36x36x512 (shapeCast S1x36x512 v shapeCasts_S36x512_S1x36x512) broadcasts_S1x36x512_S36x36x512))
                  (broadcast S36x36x512 (Scalar.ofBits (F := Ideal) .f32 0x00000000#32)))
        shapeCasts_S36x36x512_S1296x512) bitsLt_bf16_f32 (ix2 (pairRow i j) r)
      = max (u (ix2 i r) * v (ix2 j r)) (Ideal.ofBits .f32 0x00000000#32) := by
  refine (truncf_apply _ bitsLt_bf16_f32 (ix2 (pairRow i j) r)).trans ?_
  refine (shapeCast_pairs_rows_apply _ shapeCasts_S36x36x512_S1296x512 i j r).trans ?_
  show max (broadcastTo S36x36x512 (shapeCast S36x1x512 u shapeCasts_S36x512_S36x1x512) broadcasts_S36x1x512_S36x36x512 (ix3 i j r)
          * broadcastTo S36x36x512 (shapeCast S1x36x512 v shapeCasts_S36x512_S1x36x512) broadcasts_S1x36x512_S36x36x512 (ix3 i j r))
        (Ideal.ofBits .f32 0x00000000#32) = _
  rw [broadcastTo_a1b_acb_apply (a := 36) (b := 512) (c := 36) (by decide) (by decide),
    broadcastTo_1ab_cab_apply (a := 36) (b := 512) (c := 36) (by decide) (by decide),
    shapeCast_ab_a1b_apply, shapeCast_ab_1ab_apply]

/-- The coordinate pair scores: row 36·i + j, feature d, of the coordinate pair tensor times the 512 × 2048 block. -/
theorem coordScore_blk (v2 : FVec Ideal S1x36x4 .f32) (v4 v6 : FVec Ideal S4x512 .f32) (v33 : FVec Ideal S512x2048 .bf16)
    (i j : Fin 36) (d : Fin 2048) :
    k0_pay4 (F := Ideal) v2 v4 v6 v33 (ix2 (pairRow i j) d)
      = pairScore (coordProj (fun n k => v2 (ix3 (0 : Fin 1) n k)) (fun k r => v4 (ix2 k r)))
          (coordProj (fun n k => v2 (ix3 (0 : Fin 1) n k)) (fun k r => v6 (ix2 k r))) (fun r d => v33 (ix2 r d)) i j d := by
  unfold k0_pay4
  refine (pairMatmul_apply _ _ (pairRow i j) d).trans ?_
  unfold pairScore
  refine Finset.sum_congr rfl fun r _ => ?_
  refine congrArg₂ (· * ·) ?_ (congrFun (shapeCast_self v33 _) (ix2 r d))
  refine (pairCut_apply _ _ i j r).trans ?_
  rw [coordProj_blk, coordProj_blk]

/-- The feature pair tensor: row 36·i + j, column r. -/
theorem featCut_blk (v0 : FVec Ideal S1x36x2048 .f32) (v16 v19 : FVec Ideal S2048x512 .bf16) (i j : Fin 36) (r : Fin 512) :
    k0_pay3 (F := Ideal) v0 v16 v19 (ix2 (pairRow i j) r)
      = max (featProj (fun n k => v0 (ix3 (0 : Fin 1) n k)) (fun k r => v16 (ix2 k r)) i r
            * featProj (fun n k => v0 (ix3 (0 : Fin 1) n k)) (fun k r => v19 (ix2 k r)) j r) (Ideal.ofBits .f32 0x00000000#32) := by
  unfold k0_pay3
  refine (pairCut_apply _ _ i j r).trans ?_
  rw [featProj_blk, featProj_blk]

/-- The stored block from the three earlier terms and the last loaded block: at (·, i, d), the maximum over j, from
    −∞, of (the first score at row 36·i + j) + (the pair row 36·i + j times the block's column d), plus the
    features' (i, d). -/
theorem out_blk (v1 : FVec Ideal S36x2048 .f32) (v32 : FVec Ideal S1296x512 .bf16) (v35 : FVec Ideal S1296x2048 .f32)
    (v36 : FVec Ideal S512x2048 .bf16) (u : Fin 1) (i : Fin 36) (d : Fin 2048) :
    k0_pay1 (F := Ideal) v1 v32 v35 v36 (ix3 u i d)
      = (Finset.univ : Finset (Fin 36)).fold max (Ideal.ofBits .f32 0xFF800000#32)
          (fun j => v35 (ix2 (pairRow i j) d) + ∑ r : Fin 512, v32 (ix2 (pairRow i j) r) * v36 (ix2 r d))
        + v1 (ix2 i d) := by
  unfold k0_pay1
  refine (shapeCast_ab_1ab_apply _ shapeCasts_S36x2048_S1x36x2048 u i d).trans ?_
  refine (addf_apply _ _ (ix2 i d)).trans ?_
  refine congrArg (· + v1 (ix2 i d)) ?_
  refine (maxMiddle_apply _ 0xFF800000#32 reduces_S36x36x2048_S36x2048 (.inl rfl) rfl i d).trans ?_
  refine Finset.fold_congr fun j _ => ?_
  refine (shapeCast_rows_pairs_apply _ shapeCasts_S1296x2048_S36x36x2048 i j d).trans ?_
  refine (addf_apply _ _ (ix2 (pairRow i j) d)).trans ?_
  refine congrArg (v35 (ix2 (pairRow i j) d) + ·) ?_
  refine (pairMatmul_apply _ _ (pairRow i j) d).trans ?_
  refine Finset.sum_congr rfl fun r _ => ?_
  exact congrArg (v32 (ix2 (pairRow i j) r) * ·) (congrFun (shapeCast_self v36 _) (ix2 r d))

/-- THE BLOCK: what the body stores, from the eight blocks it loads, is `fused` of them. -/
theorem block_apply (x0 : FVec Ideal S1x36x2048 .f32) (x1 : FVec Ideal S1x36x4 .f32) (x2 x3 : FVec Ideal S2048x512 .bf16)
    (x4 : FVec Ideal S512x2048 .bf16) (x5 x6 : FVec Ideal S4x512 .f32) (x7 : FVec Ideal S512x2048 .bf16)
    (u : Fin 1) (i : Fin 36) (d : Fin 2048) :
    k0_pay1 (F := Ideal) (k0_pay2 (F := Ideal) x0) (k0_pay3 (F := Ideal) x0 x2 x3) (k0_pay4 (F := Ideal) x1 x5 x6 x7) x4 (ix3 u i d)
      = fused (fun n k => x0 (ix3 (0 : Fin 1) n k)) (fun n k => x1 (ix3 (0 : Fin 1) n k))
          (fun k r => x2 (ix2 k r)) (fun k r => x3 (ix2 k r)) (fun r d => x4 (ix2 r d))
          (fun k r => x5 (ix2 k r)) (fun k r => x6 (ix2 k r)) (fun r d => x7 (ix2 r d)) i d := by
  refine (out_blk _ _ _ _ u i d).trans ?_
  unfold fused
  refine congrArg₂ (· + ·) (Finset.fold_congr fun j _ => ?_) (rows_apply x0 i d)
  refine congrArg₂ (· + ·) (coordScore_blk x1 x5 x6 x7 i j d) ?_
  unfold pairScore
  refine Finset.sum_congr rfl fun r _ => ?_
  exact congrArg (· * x4 (ix2 r d)) (featCut_blk x0 x2 x3 i j r)

end Cert.KernelIdeal.BlockValue

end
-- ==== Proof.ArrayValue.lean ====
/-
  The kernel's result array, whole: `result` of the eight argument arrays.

  The grid has 32 points, one per batch element. At point t the body sees row block t of the features and of the
  coordinates (blocks [1, 36, ·] at block index (t, 0, 0)) and the six weight matrices whole (block index (0, 0) at
  every point), and writes row block t of the output. Four of the weight matrices reach the region through a
  narrowing done before it; at the ideal values that is the identity, so the region finds the arguments' own entries.
  So what point t writes back is, entry by entry, `fused` of batch element t's rows: block t of `result`. The 32
  output blocks tile the output array — entry (b, i, d) lies in block b — hence the array after the run is `result`.
-/
import proofs.«153638_j45707041964432_2_alg».proof.Proof.Gen.KernelIdeal.Value
import proofs.«153638_j45707041964432_2_alg».proof.Proof.BlockValue
import Idealize.ShloMosaic.Lib.StableHlo.Run
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.StableHlo Idealize.ShloMosaic.ValueIdx Cert.PairFusion
open Idealize.ShloMosaic.Pipeline (Dat)

variable (m : (ℓ : Loc nD τ sig) → Buf (Elt Ideal) ℓ) (ρ : Dev nD → PrngReg)

/-- `result` of a memory's eight argument arrays on core `c`. -/
abbrev out (c : Dev nD) : S32x36x2048.Idx → EReal :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem hz3 : (![0, 0, 0] : Fin 3 → Nat) = fun _ => 0 := funext fun a => by fin_cases a <;> rfl
theorem hz2 : (![0, 0] : Fin 2 → Nat) = fun _ => 0 := funext fun a => by fin_cases a <;> rfl

/-! ## The block index of each window at a grid point, decided over the 32 points -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 3) = t.val ∧ win0_8.index t (1 : Fin 3) = 0 ∧ win0_8.index t (2 : Fin 3) = 0 :=
  (by decide +kernel : ∀ t : Fin grid0.N, _)

/-! ## The four narrowed weight matrices as the region finds them: the arguments' own entries -/

theorem V_main_v0 (c : Dev nD) : (V m c main_v0 : S2048x512.Idx → EReal) = m ((c : Thread nD τ).loc main_arg2) := by
  dsimp only [V, hostOps0]
  after_results
  rfl
theorem V_main_v1 (c : Dev nD) : (V m c main_v1 : S2048x512.Idx → EReal) = m ((c : Thread nD τ).loc main_arg3) := by
  dsimp only [V, hostOps0]
  after_results
  rfl
theorem V_main_v2 (c : Dev nD) : (V m c main_v2 : S512x2048.Idx → EReal) = m ((c : Thread nD τ).loc main_arg4) := by
  dsimp only [V, hostOps0]
  after_results
  rfl
theorem V_main_v3 (c : Dev nD) : (V m c main_v3 : S512x2048.Idx → EReal) = m ((c : Thread nD τ).loc main_arg7) := by
  dsimp only [V, hostOps0]
  after_results
  rfl

/-! ## Each window's block at point t, read at an entry -/

/-- The features' block at point t is batch element t's rows. -/
theorem read0 (c : Dev nD) (t : Fin cfg0.N) (n : Fin 36) (k : Fin 2048) :
    iblk m c 0 t (ix3 (0 : Fin 1) n k) = m ((c : Thread nD τ).loc main_arg0) (ix3 (Fin.cast N_0 t) n k) := by
  obtain ⟨e0, e1, e2⟩ := idx0 t
  show V m c main_arg0 (((cfg0.win 0).blk t).view.emb (ix3 (0 : Fin 1) n k)) = _
  rw [V_main_arg0]
  refine congrArg _ (funext fun a => Fin.ext ?_)
  match a with
  | ⟨0, _⟩ => show win0_0.index t (0 : Fin 3) * 1 + 1 * 0 = t.val; omega
  | ⟨1, _⟩ => show win0_0.index t (1 : Fin 3) * 36 + 1 * n.val = n.val; omega
  | ⟨2, _⟩ => show win0_0.index t (2 : Fin 3) * 2048 + 1 * k.val = k.val; omega

/-- The coordinates' block at point t is batch element t's rows. -/
theorem read1 (c : Dev nD) (t : Fin cfg0.N) (n : Fin 36) (k : Fin 4) :
    iblk m c 1 t (ix3 (0 : Fin 1) n k) = m ((c : Thread nD τ).loc main_arg1) (ix3 (Fin.cast N_0 t) n k) := by
  obtain ⟨e0, e1, e2⟩ := idx1 t
  show V m c main_arg1 (((cfg0.win 1).blk t).view.emb (ix3 (0 : Fin 1) n k)) = _
  rw [V_main_arg1]
  refine congrArg _ (funext fun a => Fin.ext ?_)
  match a with
  | ⟨0, _⟩ => show win0_1.index t (0 : Fin 3) * 1 + 1 * 0 = t.val; omega
  | ⟨1, _⟩ => show win0_1.index t (1 : Fin 3) * 36 + 1 * n.val = n.val; omega
  | ⟨2, _⟩ => show win0_1.index t (2 : Fin 3) * 4 + 1 * k.val = k.val; omega

/-- The first feature projection matrix, whole at every point. -/
theorem read2 (c : Dev nD) (t : Fin cfg0.N) (k : Fin 2048) (r : Fin 512) :
    iblk m c 2 t (ix2 k r) = m ((c : Thread nD τ).loc main_arg2) (ix2 k r) := by
  obtain ⟨e0, e1⟩ := idx2 t
  show V m c main_v0 (((cfg0.win 2).blk t).view.emb (ix2 k r)) = _
  rw [V_main_v0]
  refine congrArg _ (funext fun a => Fin.ext ?_)
  match a with
  | ⟨0, _⟩ => show win0_2.index t (0 : Fin 2) * 2048 + 1 * k.val = k.val; omega
  | ⟨1, _⟩ => show win0_2.index t (1 : Fin 2) * 512 + 1 * r.val = r.val; omega

/-- The second feature projection matrix, whole at every point. -/
theorem read3 (c : Dev nD) (t : Fin cfg0.N) (k : Fin 2048) (r : Fin 512) :
    iblk m c 3 t (ix2 k r) = m ((c : Thread nD τ).loc main_arg3) (ix2 k r) := by
  obtain ⟨e0, e1⟩ := idx3 t
  show V m c main_v1 (((cfg0.win 3).blk t).view.emb (ix2 k r)) = _
  rw [V_main_v1]
  refine congrArg _ (funext fun a => Fin.ext ?_)
  match a with
  | ⟨0, _⟩ => show win0_3.index t (0 : Fin 2) * 2048 + 1 * k.val = k.val; omega
  | ⟨1, _⟩ => show win0_3.index t (1 : Fin 2) * 512 + 1 * r.val = r.val; omega

/-- The feature score matrix, whole at every point. -/
theorem read4 (c : Dev nD) (t : Fin cfg0.N) (k : Fin 512) (r : Fin 2048) :
    iblk m c 4 t (ix2 k r) = m ((c : Thread nD τ).loc main_arg4) (ix2 k r) := by
  obtain ⟨e0, e1⟩ := idx4 t
  show V m c main_v2 (((cfg0.win 4).blk t).view.emb (ix2 k r)) = _
  rw [V_main_v2]
  refine congrArg _ (funext fun a => Fin.ext ?_)
  match a with
  | ⟨0, _⟩ => show win0_4.index t (0 : Fin 2) * 512 + 1 * k.val = k.val; omega
  | ⟨1, _⟩ => show win0_4.index t (1 : Fin 2) * 2048 + 1 * r.val = r.val; omega

/-- The first coordinate projection matrix, whole at every point. -/
theorem read5 (c : Dev nD) (t : Fin cfg0.N) (k : Fin 4) (r : Fin 512) :
    iblk m c 5 t (ix2 k r) = m ((c : Thread nD τ).loc main_arg5) (ix2 k r) := by
  obtain ⟨e0, e1⟩ := idx5 t
  show V m c main_arg5 (((cfg0.win 5).blk t).view.emb (ix2 k r)) = _
  rw [V_main_arg5]
  refine congrArg _ (funext fun a => Fin.ext ?_)
  match a with
  | ⟨0, _⟩ => show win0_5.index t (0 : Fin 2) * 4 + 1 * k.val = k.val; omega
  | ⟨1, _⟩ => show win0_5.index t (1 : Fin 2) * 512 + 1 * r.val = r.val; omega

/-- The second coordinate projection matrix, whole at every point. -/
theorem read6 (c : Dev nD) (t : Fin cfg0.N) (k : Fin 4) (r : Fin 512) :
    iblk m c 6 t (ix2 k r) = m ((c : Thread nD τ).loc main_arg6) (ix2 k r) := by
  obtain ⟨e0, e1⟩ := idx6 t
  show V m c main_arg6 (((cfg0.win 6).blk t).view.emb (ix2 k r)) = _
  rw [V_main_arg6]
  refine congrArg _ (funext fun a => Fin.ext ?_)
  match a with
  | ⟨0, _⟩ => show win0_6.index t (0 : Fin 2) * 4 + 1 * k.val = k.val; omega
  | ⟨1, _⟩ => show win0_6.index t (1 : Fin 2) * 512 + 1 * r.val = r.val; omega

/-- The coordinate score matrix, whole at every point. -/
theorem read7 (c : Dev nD) (t : Fin cfg0.N) (k : Fin 512) (r : Fin 2048) :
    iblk m c 7 t (ix2 k r) = m ((c : Thread nD τ).loc main_arg7) (ix2 k r) := by
  obtain ⟨e0, e1⟩ := idx7 t
  show V m c main_v3 (((cfg0.win 7).blk t).view.emb (ix2 k r)) = _
  rw [V_main_v3]
  refine congrArg _ (funext fun a => Fin.ext ?_)
  match a with
  | ⟨0, _⟩ => show win0_7.index t (0 : Fin 2) * 512 + 1 * k.val = k.val; omega
  | ⟨1, _⟩ => show win0_7.index t (1 : Fin 2) * 2048 + 1 * r.val = r.val; omega

/-- Entry (·, i, d) of the output's block at point t is entry (t, i, d) of the output array. -/
theorem emb8 (t : Fin cfg0.N) (u : Fin 1) (i : Fin 36) (d : Fin 2048) :
    ((cfg0.win 8).blk t).view.emb (ix3 u i d) = ix3 (Fin.cast N_0 t) i d := by
  obtain ⟨e0, e1, e2⟩ := idx8 t
  have hu : u.val = 0 := by omega
  refine funext fun a => Fin.ext ?_
  match a with
  | ⟨0, _⟩ => show win0_8.index t (0 : Fin 3) * 1 + 1 * u.val = t.val; omega
  | ⟨1, _⟩ => show win0_8.index t (1 : Fin 3) * 36 + 1 * i.val = i.val; omega
  | ⟨2, _⟩ => show win0_8.index t (2 : Fin 3) * 2048 + 1 * d.val = d.val; omega

/-! ## What point t writes back -/

/-- WHAT POINT t WRITES BACK is block t of `result` of the arguments. -/
theorem flushed_eq (c : Dev nD) (t : Fin cfg0.N) :
    (dats m 0 c).flushed 8 t = ((cfg0.win 8).blk t).view.read (Elt Ideal) (out m c) := by
  rw [Value.flushed8]
  unfold out0_8
  rw [View.canon_unit_zero hz3]
  simp only [View.ld_unit_zero (S := S1x36x2048) hz3, View.ld_unit_zero (S := S1x36x4) hz3,
    View.ld_unit_zero (S := S2048x512) hz2, View.ld_unit_zero (S := S512x2048) hz2, View.ld_unit_zero (S := S4x512) hz2]
  funext y
  obtain ⟨u, i, d, rfl⟩ : ∃ (u : Fin 1) (i : Fin 36) (d : Fin 2048), y = ix3 u i d := ⟨y 0, y 1, y 2, eq_ix3 y⟩
  show k0_pay1 (k0_pay2 (iblk m c 0 t)) (k0_pay3 (iblk m c 0 t) (iblk m c 2 t) (iblk m c 3 t))
        (k0_pay4 (iblk m c 1 t) (iblk m c 5 t) (iblk m c 6 t) (iblk m c 7 t)) (iblk m c 4 t) (ix3 u i d)
      = out m c (((cfg0.win 8).blk t).view.emb (ix3 u i d))
  rw [emb8]
  unfold out
  rw [result_ix3]
  refine (BlockValue.block_apply (iblk m c 0 t) (iblk m c 1 t) (iblk m c 2 t) (iblk m c 3 t) (iblk m c 4 t)
    (iblk m c 5 t) (iblk m c 6 t) (iblk m c 7 t) u i d).trans ?_
  simp only [read0, read1, read2, read3, read4, read5, read6, read7]

/-! ## The output blocks tile the array -/

/-- An entry of the array is in point t's block iff each coordinate is in the block's range on its axis. -/
theorem mem_blk (t : Fin cfg0.N) (o : S32x36x2048.Idx) :
    o ∈ ((cfg0.win 8).blk t).view.set ↔ ∀ a : Fin 3, win0_8.index t a * S1x36x2048.size a ≤ (o a).val ∧ (o a).val < win0_8.index t a * S1x36x2048.size a + S1x36x2048.size a := by
  show o ∈ ((View.whole main_v4).slice (win0_8.rect t)).set ↔ _
  rw [View.set_slice_whole, Rect.mem_set_unit]
  exact Iff.rfl

/-- Entry (b, i, d) lies in the block of point b. -/
theorem cover (o : S32x36x2048.Idx) : ∃ t : Fin cfg0.N, (cfg0.win 8).flush t = true ∧ o ∈ ((cfg0.win 8).blk t).view.set := by
  have h0 : (o 0).val < 32 := (o 0).isLt
  have h1 : (o 1).val < 36 := (o 1).isLt
  have h2 : (o 2).val < 2048 := (o 2).isLt
  obtain ⟨t, ht⟩ : ∃ t : Fin cfg0.N, t.val = (o 0).val := ⟨Fin.cast N_0.symm ⟨(o 0).val, h0⟩, rfl⟩
  obtain ⟨e0, e1, e2⟩ := idx8 t
  refine ⟨t, flush0_8 t, ?_⟩
  rw [mem_blk]
  intro a
  match a with
  | ⟨0, _⟩ => show win0_8.index t (0 : Fin 3) * 1 ≤ (o 0).val ∧ (o 0).val < win0_8.index t (0 : Fin 3) * 1 + 1; omega
  | ⟨1, _⟩ => show win0_8.index t (1 : Fin 3) * 36 ≤ (o 1).val ∧ (o 1).val < win0_8.index t (1 : Fin 3) * 36 + 36; omega
  | ⟨2, _⟩ => show win0_8.index t (2 : Fin 3) * 2048 ≤ (o 2).val ∧ (o 2).val < win0_8.index t (2 : Fin 3) * 2048 + 2048; omega

/-- THE ARRAY after the run is `result` of the arguments. -/
theorem final (c : Dev nD) : (dats m 0 c).arrAt 8 cfg0.N = out m c :=
  (dats m 0 c).arrAt_eq_of_cover 8 (out m c) (fun t _ => flushed_eq m c t) cover

/-! ## The run, read -/

/-- Every weakly fair execution of the kernel's program terminates with the output array at `result` of the
    arguments and the arguments unchanged. -/
theorem run : θ_run defs (onTc (τ := τ) (main (F := Ideal))) ⟨m, fun _ => 0, ρ⟩ fun r => ∀ c : Dev nD,
      r.2.mem ((c : Thread nD τ).loc main_v4) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.ArrayValue

end
-- ==== Proof.RefValue.lean ====
/-
  The reference's result is `result` of its arguments.

  The reference works on all 32 batch elements at once, with the pair axis as an array axis: both projections are
  matrix products contracted over the last axis of a [32, 36, ·] array; the pair tensor [32, 36, 36, 512] is the
  product of the first projection repeated along axis 2 with the second repeated along axis 1, cut below at zero;
  each pair score is a product contracted over the tensor's last axis; the two scores are added; the maximum is
  taken along axis 2 from −∞; the features are added. Read at (b, i, d), operation by operation, every index met
  is one of (b, n, k), (k, r), (b, i, j, r), (r, d), and what is left is `fused` of batch element b's rows.
  The maximum along an axis is a fold over that axis's coordinate, in any order, `max` being commutative and
  associative.
-/
import proofs.«153638_j45707041964432_2_alg».proof.Proof.Gen.ReferenceIdeal.Read
import proofs.«153638_j45707041964432_2_alg».proof.Proof.PairSpec
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx Cert.PairFusion

/-- The coordinate pair tensor at (b, i, j, r). -/
theorem coordCut_apply (x1 : FVec Ideal S32x36x4 .f32) (x5 x6 : FVec Ideal S4x512 .f32)
    (b : Fin 32) (i j : Fin 36) (r : Fin 512) :
    val_main_v7 (F := Ideal) x1 x5 x6 (ix4 b i j r)
      = max (coordProj (fun n k => x1 (ix3 b n k)) (fun k r => x5 (ix2 k r)) i r
            * coordProj (fun n k => x1 (ix3 b n k)) (fun k r => x6 (ix2 k r)) j r) (Ideal.ofBits .f32 0x00000000#32) := by
  have l0 : ∀ k : Fin 4, lidx_main_v0 (idx_main_v2 (idx_main_v4 (ix4 b i j r))) k = ix3 b i k := fun k =>
    funext fun a => Fin.ext (by match a with | ⟨0, _⟩ => rfl | ⟨1, _⟩ => rfl | ⟨2, _⟩ => rfl)
  have r0 : ∀ k : Fin 4, ridx_main_v0 (idx_main_v2 (idx_main_v4 (ix4 b i j r))) k = ix2 k r := fun k =>
    funext fun a => Fin.ext (by match a with | ⟨0, _⟩ => rfl | ⟨1, _⟩ => rfl)
  have l1 : ∀ k : Fin 4, lidx_main_v1 (idx_main_v3 (idx_main_v5 (ix4 b i j r))) k = ix3 b j k := fun k =>
    funext fun a => Fin.ext (by match a with | ⟨0, _⟩ => rfl | ⟨1, _⟩ => rfl | ⟨2, _⟩ => rfl)
  have r1 : ∀ k : Fin 4, ridx_main_v1 (idx_main_v3 (idx_main_v5 (ix4 b i j r))) k = ix2 k r := fun k =>
    funext fun a => Fin.ext (by match a with | ⟨0, _⟩ => rfl | ⟨1, _⟩ => rfl)
  rw [val_main_v7_apply, val_main_v6_apply, val_main_v4_apply, val_main_v2_apply, val_main_v0_apply,
    val_main_v5_apply, val_main_v3_apply, val_main_v1_apply, val_main_call0_v0_apply, val_main_call0_cst_apply]
  simp only [l0, r0, l1, r1]
  rfl

/-- The feature pair tensor at (b, i, j, r). -/
theorem featCut_apply (x0 : FVec Ideal S32x36x2048 .f32) (x2 x3 : FVec Ideal S2048x512 .f32)
    (b : Fin 32) (i j : Fin 36) (r : Fin 512) :
    val_main_v16 (F := Ideal) x0 x2 x3 (ix4 b i j r)
      = max (featProj (fun n k => x0 (ix3 b n k)) (fun k r => x2 (ix2 k r)) i r
            * featProj (fun n k => x0 (ix3 b n k)) (fun k r => x3 (ix2 k r)) j r) (Ideal.ofBits .f32 0x00000000#32) := by
  have l0 : ∀ k : Fin 2048, lidx_main_v9 (idx_main_v11 (idx_main_v13 (ix4 b i j r))) k = ix3 b i k := fun k =>
    funext fun a => Fin.ext (by match a with | ⟨0, _⟩ => rfl | ⟨1, _⟩ => rfl | ⟨2, _⟩ => rfl)
  have r0 : ∀ k : Fin 2048, ridx_main_v9 (idx_main_v11 (idx_main_v13 (ix4 b i j r))) k = ix2 k r := fun k =>
    funext fun a => Fin.ext (by match a with | ⟨0, _⟩ => rfl | ⟨1, _⟩ => rfl)
  have l1 : ∀ k : Fin 2048, lidx_main_v10 (idx_main_v12 (idx_main_v14 (ix4 b i j r))) k = ix3 b j k := fun k =>
    funext fun a => Fin.ext (by match a with | ⟨0, _⟩ => rfl | ⟨1, _⟩ => rfl | ⟨2, _⟩ => rfl)
  have r1 : ∀ k : Fin 2048, ridx_main_v10 (idx_main_v12 (idx_main_v14 (ix4 b i j r))) k = ix2 k r := fun k =>
    funext fun a => Fin.ext (by match a with | ⟨0, _⟩ => rfl | ⟨1, _⟩ => rfl)
  rw [val_main_v16_apply, val_main_v15_apply, val_main_v13_apply, val_main_v11_apply, val_main_v9_apply,
    val_main_v14_apply, val_main_v12_apply, val_main_v10_apply, val_main_call1_v0_apply, val_main_call1_cst_apply]
  simp only [l0, r0, l1, r1]
  rfl

/-- The coordinate pair score at (b, i, j, d). -/
theorem coordScore_apply (x1 : FVec Ideal S32x36x4 .f32) (x5 x6 : FVec Ideal S4x512 .f32) (x7 : FVec Ideal S512x2048 .f32)
    (b : Fin 32) (i j : Fin 36) (d : Fin 2048) :
    val_main_v8 (F := Ideal) x1 x5 x6 x7 (ix4 b i j d)
      = pairScore (coordProj (fun n k => x1 (ix3 b n k)) (fun k r => x5 (ix2 k r)))
          (coordProj (fun n k => x1 (ix3 b n k)) (fun k r => x6 (ix2 k r))) (fun r d => x7 (ix2 r d)) i j d := by
  have l : ∀ r : Fin 512, lidx_main_v8 (ix4 b i j d) r = ix4 b i j r := fun r =>
    funext fun a => Fin.ext (by match a with | ⟨0, _⟩ => rfl | ⟨1, _⟩ => rfl | ⟨2, _⟩ => rfl | ⟨3, _⟩ => rfl)
  have rr : ∀ r : Fin 512, ridx_main_v8 (ix4 b i j d) r = ix2 r d := fun r =>
    funext fun a => Fin.ext (by match a with | ⟨0, _⟩ => rfl | ⟨1, _⟩ => rfl)
  rw [val_main_v8_apply]
  unfold pairScore
  refine Finset.sum_congr rfl fun r _ => ?_
  rw [l, rr, coordCut_apply]

/-- The feature pair score at (b, i, j, d). -/
theorem featScore_apply (x0 : FVec Ideal S32x36x2048 .f32) (x2 x3 : FVec Ideal S2048x512 .f32) (x4 : FVec Ideal S512x2048 .f32)
    (b : Fin 32) (i j : Fin 36) (d : Fin 2048) :
    val_main_v17 (F := Ideal) x0 x2 x3 x4 (ix4 b i j d)
      = pairScore (featProj (fun n k => x0 (ix3 b n k)) (fun k r => x2 (ix2 k r)))
          (featProj (fun n k => x0 (ix3 b n k)) (fun k r => x3 (ix2 k r))) (fun r d => x4 (ix2 r d)) i j d := by
  have l : ∀ r : Fin 512, lidx_main_v17 (ix4 b i j d) r = ix4 b i j r := fun r =>
    funext fun a => Fin.ext (by match a with | ⟨0, _⟩ => rfl | ⟨1, _⟩ => rfl | ⟨2, _⟩ => rfl | ⟨3, _⟩ => rfl)
  have rr : ∀ r : Fin 512, ridx_main_v17 (ix4 b i j d) r = ix2 r d := fun r =>
    funext fun a => Fin.ext (by match a with | ⟨0, _⟩ => rfl | ⟨1, _⟩ => rfl)
  rw [val_main_v17_apply]
  unfold pairScore
  refine Finset.sum_congr rfl fun r _ => ?_
  rw [l, rr, featCut_apply]

/-- The pair axis dropped from a [32, 36, 36, 2048] index. -/
theorem reduces_pairs : S32x36x36x2048.Reduces [2] S32x36x2048 := by decide

/-- THE REFERENCE: its last stage, as a function of the eight arguments, is `result`. -/
theorem result_eq (x0 : FVec Ideal S32x36x2048 .f32) (x1 : FVec Ideal S32x36x4 .f32) (x2 x3 : FVec Ideal S2048x512 .f32)
    (x4 : FVec Ideal S512x2048 .f32) (x5 x6 : FVec Ideal S4x512 .f32) (x7 : FVec Ideal S512x2048 .f32) :
    val_main_v20 (F := Ideal) x0 x1 x2 x3 x4 x5 x6 x7 = result x0 x1 x2 x3 x4 x5 x6 x7 := by
  funext o
  obtain ⟨b, i, d, rfl⟩ : ∃ (b : Fin 32) (i : Fin 36) (d : Fin 2048), o = ix3 b i d := ⟨o 0, o 1, o 2, eq_ix3 o⟩
  rw [val_main_v20_apply, result_ix3]
  unfold fused
  refine congrArg (· + x0 (ix3 b i d)) ?_
  unfold val_main_v19
  refine (Host.reduce_eq_fold_single FloatOps.maximumf _ _ reducesTo_S32x36x36x2048_S32x36x2048_d2 reduces_pairs h_S_ (ix3 b i d)).trans ?_
  refine Finset.fold_congr fun (j : Fin 36) _ => ?_
  have e : reduces_pairs.lift (ix3 b i d) j = ix4 b i j d :=
    funext fun a => Fin.ext (by match a with | ⟨0, _⟩ => rfl | ⟨1, _⟩ => rfl | ⟨2, _⟩ => rfl | ⟨3, _⟩ => rfl)
  show val_main_v18 (F := Ideal) x0 x1 x2 x3 x4 x5 x6 x7 (reduces_pairs.lift (ix3 b i d) j) = _
  rw [e, val_main_v18_apply, coordScore_apply, featScore_apply]
  rfl

end Cert.ReferenceIdeal.RefValue

end
-- ==== Proof.lean ====
/-
  The kernel (one grid point per batch element, everything for that element computed in one body) and the reference
  (all batch elements at once, the region pairs as an array axis) compute, at the ideal values, one function of the
  eight arguments:

      out[b, i, d] = max_j ( Σ_r max(uc[b,i,r] · vc[b,j,r], 0) · P_coord[r,d]
                           + Σ_r max(uf[b,i,r] · vf[b,j,r], 0) · P_feat[r,d] ) + mm[b, i, d],

  with uc = coords · U_coord, vc = coords · V_coord, uf = mm · U_feat, vf = mm · V_feat and the maximum taken from −∞
  (`Cert.PairFusion.result`). The kernel narrows some operands to sixteen bits before its matrix products; at the ideal
  values a change of format is the identity. Its matrix products into a zero accumulator and the reference's
  contractions are the same finite sums; its maximum along an axis and the reference's are the same fold of `max`;
  its flattening of the 36 × 36 pairs into 1296 rows and back is a relabelling of indices. No law of the extended reals beyond
  that is used — the two sides are the same sums of the same products in the same arrangement — so the finiteness of
  the inputs is never needed.

  The kernel's side is `Cert.KernelIdeal.ArrayValue.run` (each grid point writes its block of `result`; the blocks
  tile the output), the reference's is `Cert.ReferenceIdeal.RefValue.result_eq` (its last stage is `result`). The
  three frame claims are the programs' runs with the result forgotten, and the idealization rewrote nothing.
-/
import proofs.«153638_j45707041964432_2_alg».proof.Defs
import proofs.«153638_j45707041964432_2_alg».proof.Proof.Gen.Kernel
import proofs.«153638_j45707041964432_2_alg».proof.Proof.Gen.Kernel.Skeleton
import proofs.«153638_j45707041964432_2_alg».proof.Proof.Gen.Kernel.Launch
import proofs.«153638_j45707041964432_2_alg».proof.Proof.Gen.Kernel.Points
import proofs.«153638_j45707041964432_2_alg».proof.Proof.Gen.Kernel.Frame
import proofs.«153638_j45707041964432_2_alg».proof.Proof.Gen.KernelIdeal
import proofs.«153638_j45707041964432_2_alg».proof.Proof.Gen.KernelIdeal.Skeleton
import proofs.«153638_j45707041964432_2_alg».proof.Proof.Gen.KernelIdeal.Launch
import proofs.«153638_j45707041964432_2_alg».proof.Proof.Gen.KernelIdeal.Points
import proofs.«153638_j45707041964432_2_alg».proof.Proof.Gen.KernelIdeal.Frame
import proofs.«153638_j45707041964432_2_alg».proof.Proof.Gen.ReferenceIdeal
import proofs.«153638_j45707041964432_2_alg».proof.Proof.Gen.Pre_finite_inputs
import proofs.«153638_j45707041964432_2_alg».proof.Proof.Gen.KernelIdeal.Value
import proofs.«153638_j45707041964432_2_alg».proof.Proof.Gen.ReferenceIdeal.Run
import proofs.«153638_j45707041964432_2_alg».proof.Proof.Gen.ReferenceIdeal.Read
import proofs.«153638_j45707041964432_2_alg».proof.Proof.ArrayValue
import proofs.«153638_j45707041964432_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's run, with what it says of the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel: there is nothing to preserve. -/
theorem preserves : Cert.preserves_Kernel_KernelIdeal := trivial

/-- From memories that agree on the eight arguments both programs end with the result array at `result` of those
    arguments: the kernel by its blocks, the reference by its stages. -/
theorem algebraic : Cert.algebraic_KernelIdeal_ReferenceIdeal := by
  intro m ρ m' ρ' _ hagree
  refine ⟨fun c => Cert.KernelIdeal.ArrayValue.out m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq]
  unfold Cert.KernelIdeal.ArrayValue.out
  rw [(hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
